-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 43
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .bf16⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .bf16⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S128x128, .f32⟩
  | .hbm, ⟨39, _⟩ => ⟨S128x128, .f32⟩
  | .hbm, ⟨40, _⟩ => ⟨S128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.BlockEntry.lean ====
/-
  One block of the fused projection, entry by entry.

  At a grid point the body holds six loaded blocks: 5000 rows of the neighbour sums `a`, the same rows of the
  reciprocal-count column `s`, the same rows of the features `x`, the two transposed weight matrices `u`, `v`
  and the one-row bias `b`.  What it stores at row `p`, column `q` is

      (∑ₖ (a p k · s p) · u k q  +  ∑ₖ x p k · v k q)  +  b q.

  Over the extended reals a change of float format is the identity, a matrix product into the zero accumulator is
  the plain sum of products, a column broadcast along its row reads the column, and a one-row matrix laid down the
  rows reads the row.
-/
import proofs.«108512_j7473243095279_2_alg».proof.Proof.Gen.KernelIdeal.Skeleton
import proofs.«108512_j7473243095279_2_alg».proof.Proof.LibDotIdx
import proofs.«108512_j7473243095279_2_alg».proof.Proof.LibKeepdims
import proofs.«108512_j7473243095279_2_alg».proof.Proof.LibRows
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-- The stored block at `(p, q)`: the scaled neighbour sums against the first weights, plus the features against
    the second weights, plus the bias entry of the column. -/
theorem stored_apply (a : Vec Ideal S5000x128 .f32) (s : Vec Ideal S5000x1 .f32) (x : Vec Ideal S5000x128 .f32)
    (u v : Vec Ideal S128x128 .f32) (b : Vec Ideal S1x128 .f32) (p : Fin 5000) (q : Fin 128) :
    k0_pay1 (F := Ideal) a s x u v b (ix2 p q)
      = ((∑ k : Fin 128, (a (ix2 p k) * s (ix2 p (0 : Fin 1))) * u (ix2 k q))
          + ∑ k : Fin 128, x (ix2 p k) * v (ix2 k q))
        + b (ix2 (0 : Fin 1) q) := by
  unfold k0_pay1
  show (matmul (F := Ideal) dot_S5000x128_S128x128_S5000x128_1_0_0_1_n_n none
          (truncf (F := Ideal) .bf16 (mulf (F := Ideal) (shapeCast S5000x128 a shapeCasts_S5000x128_S5000x128)
            (broadcastTo S5000x128 (shapeCast S5000x1 s shapeCasts_S5000x1_S5000x1) broadcasts_S5000x1_S5000x128)) bitsLt_bf16_f32)
          (truncf (F := Ideal) .bf16 (shapeCast S128x128 u shapeCasts_S128x128_S128x128) bitsLt_bf16_f32)
          (constant (F := Ideal) S5000x128 .f32 0x00000000#32) (ix2 p q)
        + matmul (F := Ideal) dot_S5000x128_S128x128_S5000x128_1_0_0_1_n_n none
          (truncf (F := Ideal) .bf16 x bitsLt_bf16_f32)
          (truncf (F := Ideal) .bf16 (shapeCast S128x128 v shapeCasts_S128x128_S128x128) bitsLt_bf16_f32)
          (constant (F := Ideal) S5000x128 .f32 0x00000000#32) (ix2 p q))
      + broadcastTo S5000x128 (shapeCast S1x128 b shapeCasts_S1x128_S1x128) broadcasts_S1x128_S5000x128 (ix2 p q) = _
  refine congrArg₂ (· + ·) (congrArg₂ (· + ·) ?_ ?_) ?_
  · refine (DotIdx.matmul_plain_zero_apply _ none _ _ p q).trans ?_
    refine Finset.sum_congr rfl fun k _ => ?_
    show shapeCast S5000x128 a shapeCasts_S5000x128_S5000x128 (ix2 p k)
          * broadcastTo S5000x128 (shapeCast S5000x1 s shapeCasts_S5000x1_S5000x1) broadcasts_S5000x1_S5000x128 (ix2 p k)
          * shapeCast S128x128 u shapeCasts_S128x128_S128x128 (ix2 k q) = _
    rw [shapeCast_self, shapeCast_self, shapeCast_self, Cert.SupCon.Ker.broadcastTo_a1_ab_apply]
  · refine (DotIdx.matmul_plain_zero_apply _ none _ _ p q).trans ?_
    refine Finset.sum_congr rfl fun k _ => ?_
    show x (ix2 p k) * shapeCast S128x128 v shapeCasts_S128x128_S128x128 (ix2 k q) = _
    rw [shapeCast_self]
  · exact Cert.LibRows.broadcastTo_oneRow_apply b _ _ p q

end Cert.KernelIdeal.Block

end
-- ==== Proof.Projection.lean ====
/-
  The mean-aggregating projection as one function of whole arrays, and the two laws that join its two spellings.

  Given the neighbour sums `a` (one row of 128 entries per node), a column `s` of per-node scale factors, the
  features `x`, two 128 × 128 matrices `u`, `v` and a one-row bias `b`, the result at node `r`, channel `q` is

      (∑ₖ (a r k · s r) · u k q  +  ∑ₖ x r k · v k q)  +  b q.

  One program scales the sums by the reciprocal `1 / max(count, 1)` and adds the two biases together at the end; the
  other divides the sums by `max(count, 1)` and adds the biases one after the other around the second product.  On
  the extended reals the two agree: a divisor that is at least one is not zero, so the product with its reciprocal is
  the quotient (at infinite entries too), and addition is commutative and associative there, so the four summands may
  be regrouped.  Neither law distributes a product over a sum, so nothing here needs the entries to be finite.
-/
import Idealize.ShloMosaic.Lib.ValueIdx
import Idealize.ShloMosaic.Lib.IdealHost

noncomputable section

namespace Cert.Projection

open Idealize.ShloMosaic Idealize.ShloMosaic.ValueIdx

/-- One row of 128 entries per node. -/
abbrev Nodes : Shape := ⟨2, ![100000, 128]⟩
/-- One entry per node, as a column. -/
abbrev Col : Shape := ⟨2, ![100000, 1]⟩
/-- A 128 × 128 matrix. -/
abbrev Mat : Shape := ⟨2, ![128, 128]⟩
/-- One row of 128 entries. -/
abbrev Row : Shape := ⟨2, ![1, 128]⟩

/-- The projection: the scaled neighbour sums against `u`, plus the features against `v`, plus the bias row. -/
def proj (a : Nodes.Idx → EReal) (s : Col.Idx → EReal) (x : Nodes.Idx → EReal) (u v : Mat.Idx → EReal)
    (b : Row.Idx → EReal) : Nodes.Idx → EReal :=
  fun i =>
    ((∑ k : Fin 128, (a (ix2 (i 0 : Fin 100000) k) * s (ix2 (i 0 : Fin 100000) (0 : Fin 1))) * u (ix2 k (i 1 : Fin 128)))
        + ∑ k : Fin 128, x (ix2 (i 0 : Fin 100000) k) * v (ix2 k (i 1 : Fin 128)))
      + b (ix2 (0 : Fin 1) (i 1 : Fin 128))

/-- The projection at node `r`, channel `q`. -/
theorem proj_apply (a : Nodes.Idx → EReal) (s : Col.Idx → EReal) (x : Nodes.Idx → EReal) (u v : Mat.Idx → EReal)
    (b : Row.Idx → EReal) (r : Fin 100000) (q : Fin 128) :
    proj a s x u v b (ix2 r q)
      = ((∑ k : Fin 128, (a (ix2 r k) * s (ix2 r (0 : Fin 1))) * u (ix2 k q))
          + ∑ k : Fin 128, x (ix2 r k) * v (ix2 k q))
        + b (ix2 (0 : Fin 1) q) := rfl

/-- Scaling by the reciprocal of `max(count, 1)` is dividing by it: the divisor is at least one, so not zero. -/
theorem scale_eq_div (z cnt : EReal) : z * Ideal.div 1 (max cnt 1) = Ideal.div z (max cnt 1) :=
  Ideal.mul_one_div (ne_of_gt (lt_of_lt_of_le zero_lt_one (le_max_right cnt 1)))

/-- The two products and the two biases, added in either grouping. -/
theorem regroup (p q a b : EReal) : (p + q) + (a + b) = ((p + a) + q) + b := by
  rw [add_add_add_comm, ← add_assoc]

end Cert.Projection

end
-- ==== Proof.WholeArray.lean ====
/-
  From the blocks to the whole result.

  The grid has twenty points; point `t` works on rows `5000 t … 5000 t + 4999`: it reads those rows of the neighbour
  sums, of the reciprocal-count column and of the features, all of the two transposed weight matrices and the one-row
  bias, and writes those rows of the result.  Every row belongs to exactly one point (row `r` to point `r / 5000`), so
  the written blocks tile the result, and since each stored block is the projection of the whole arrays restricted to
  the block's rows, the result array after the run is the projection of the arrays the region found.
-/
import proofs.«108512_j7473243095279_2_alg».proof.Proof.Gen.KernelIdeal.Value
import proofs.«108512_j7473243095279_2_alg».proof.Proof.BlockEntry
import proofs.«108512_j7473243095279_2_alg».proof.Proof.Projection
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Projection
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block each window holds at point `t`: the row windows block `t` of the rows, the others their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A block of any array, read in that array

  Stated for an arbitrary array `X` in the place of what the region finds: where a block's entry sits in its array is
  arithmetic on the block index alone. -/

/-- Row `p` of the first window's block at point `t` is row `5000 t + p` of its array. -/
theorem read_rows0 (t : Fin cfg0.N) (X : S100000x128.Idx → EReal) (p : Fin 5000) (k : Fin 128) (r : Fin 100000)
    (hr : r.val = t.val * 5000 + p.val) :
    (((cfg0.win 0).blk t).view.read (Elt Ideal) X : S5000x128.Idx → EReal) (ix2 p k) = X (ix2 r k) := by
  obtain ⟨e0, e1, -⟩ := block_indices t
  rw [View.read_apply]
  show X _ = X _
  refine congrArg X ?_
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of the column window's block at point `t` is row `5000 t + p` of its column. -/
theorem read_col1 (t : Fin cfg0.N) (X : S100000x1.Idx → EReal) (p : Fin 5000) (r : Fin 100000)
    (hr : r.val = t.val * 5000 + p.val) :
    (((cfg0.win 1).blk t).view.read (Elt Ideal) X : S5000x1.Idx → EReal) (ix2 p (0 : Fin 1)) = X (ix2 r (0 : Fin 1)) := by
  obtain ⟨-, -, e0, e1, -⟩ := block_indices t
  rw [View.read_apply]
  show X _ = X _
  refine congrArg X ?_
  funext a; apply Fin.ext
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- Row `p` of the third window's block at point `t` is row `5000 t + p` of its array. -/
theorem read_rows2 (t : Fin cfg0.N) (X : S100000x128.Idx → EReal) (p : Fin 5000) (k : Fin 128) (r : Fin 100000)
    (hr : r.val = t.val * 5000 + p.val) :
    (((cfg0.win 2).blk t).view.read (Elt Ideal) X : S5000x128.Idx → EReal) (ix2 p k) = X (ix2 r k) := by
  obtain ⟨-, -, -, -, e0, e1, -⟩ := block_indices t
  rw [View.read_apply]
  show X _ = X _
  refine congrArg X ?_
  funext a; apply Fin.ext
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- The fourth window's one block is its whole matrix. -/
theorem read_mat3 (t : Fin cfg0.N) (X : S128x128.Idx → EReal) (k q : Fin 128) :
    (((cfg0.win 3).blk t).view.read (Elt Ideal) X : S128x128.Idx → EReal) (ix2 k q) = X (ix2 k q) := by
  obtain ⟨-, -, -, -, -, -, e0, e1, -⟩ := block_indices t
  rw [View.read_apply]
  show X _ = X _
  refine congrArg X ?_
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The fifth window's one block is its whole matrix. -/
theorem read_mat4 (t : Fin cfg0.N) (X : S128x128.Idx → EReal) (k q : Fin 128) :
    (((cfg0.win 4).blk t).view.read (Elt Ideal) X : S128x128.Idx → EReal) (ix2 k q) = X (ix2 k q) := by
  obtain ⟨-, -, -, -, -, -, -, -, e0, e1, -⟩ := block_indices t
  rw [View.read_apply]
  show X _ = X _
  refine congrArg X ?_
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The sixth window's one block is its whole row. -/
theorem read_row5 (t : Fin cfg0.N) (X : S1x128.Idx → EReal) (q : Fin 128) :
    (((cfg0.win 5).blk t).view.read (Elt Ideal) X : S1x128.Idx → EReal) (ix2 (0 : Fin 1) q) = X (ix2 (0 : Fin 1) q) := by
  obtain ⟨-, -, -, -, -, -, -, -, -, -, e0, e1, -⟩ := block_indices t
  rw [View.read_apply]
  show X _ = X _
  refine congrArg X ?_
  funext a; apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

/-- Row `p` of the result window's block at point `t` is row `5000 t + p` of its array. -/
theorem read_rows6 (t : Fin cfg0.N) (Y : S100000x128.Idx → EReal) (p : Fin 5000) (q : Fin 128) (r : Fin 100000)
    (hr : r.val = t.val * 5000 + p.val) :
    (((cfg0.win 6).blk t).view.read (Elt Ideal) Y : S5000x128.Idx → EReal) (ix2 p q) = Y (ix2 r q) := by
  obtain ⟨-, -, -, -, -, -, -, -, -, -, -, -, e0, e1⟩ := block_indices t
  rw [View.read_apply]
  show Y _ = Y _
  refine congrArg Y ?_
  funext a; apply Fin.ext
  match a with
  | ⟨0, _⟩ => show win0_6.index t (0 : Fin 2) * 5000 + 1 * p.val = r.val; rw [e0, hr]; omega
  | ⟨1, _⟩ => show win0_6.index t (1 : Fin 2) * 128 + 1 * q.val = q.val; rw [e1]; omega

/-- The body's stored block, computed from point `t`'s blocks of any six arrays, is point `t`'s block of the projection
    of those arrays. -/
theorem block_eq (t : Fin cfg0.N) (X0 : S100000x128.Idx → EReal) (X1 : S100000x1.Idx → EReal)
    (X2 : S100000x128.Idx → EReal) (X3 X4 : S128x128.Idx → EReal) (X5 : S1x128.Idx → EReal) :
    k0_pay1 (F := Ideal)
        (((cfg0.win 0).blk t).view.read (Elt Ideal) X0 : Vec Ideal S5000x128 .f32)
        (((cfg0.win 1).blk t).view.read (Elt Ideal) X1 : Vec Ideal S5000x1 .f32)
        (((cfg0.win 2).blk t).view.read (Elt Ideal) X2 : Vec Ideal S5000x128 .f32)
        (((cfg0.win 3).blk t).view.read (Elt Ideal) X3 : Vec Ideal S128x128 .f32)
        (((cfg0.win 4).blk t).view.read (Elt Ideal) X4 : Vec Ideal S128x128 .f32)
        (((cfg0.win 5).blk t).view.read (Elt Ideal) X5 : Vec Ideal S1x128 .f32)
      = (((cfg0.win 6).blk t).view.read (Elt Ideal) (proj X0 X1 X2 X3 X4 X5) : S5000x128.Idx → EReal) := by
  funext j
  obtain ⟨p, q, rfl⟩ : ∃ (p : Fin 5000) (q : Fin 128), j = (ix2 p q : S5000x128.Idx) :=
    ⟨j 0, j 1, eq_ix2 (n0 := 5000) (n1 := 128) j⟩
  have hN : grid0.N = 20 := N_0
  have ht : t.val < 20 := by have h : t.val < grid0.N := t.isLt; omega
  have hp : p.val < 5000 := p.isLt
  obtain ⟨r, hr⟩ : ∃ r : Fin 100000, r.val = t.val * 5000 + p.val := ⟨⟨t.val * 5000 + p.val, by omega⟩, rfl⟩
  refine (Block.stored_apply _ _ _ _ _ _ p q).trans ?_
  rw [read_rows6 t _ p q r hr, proj_apply]
  refine congrArg₂ (· + ·) (congrArg₂ (· + ·) (Finset.sum_congr rfl fun k _ => ?_) (Finset.sum_congr rfl fun k _ => ?_)) ?_
  · rw [read_rows0 t X0 p k r hr, read_col1 t X1 p r hr, read_mat3 t X3 k q]
  · rw [read_rows2 t X2 p k r hr, read_mat4 t X4 k q]
  · exact read_row5 t X5 q

/-! ## The result -/

/-- The projection of the arrays the region finds. -/
abbrev result (c : Dev nD) : S100000x128.Idx → EReal :=
  proj (V m c main_v15) (V m c main_v24) (V m c main_arg0) (V m c main_v25) (V m c main_v26) (V m c main_v28)

/-- Each input window's block at point `t` is point `t`'s block of the array the region finds under that window. -/
theorem sums_window (c : Dev nD) (t : Fin cfg0.N) :
    iblk m c 0 t = ((cfg0.win 0).blk t).view.read (Elt Ideal) (V m c main_v15) := rfl
theorem recip_window (c : Dev nD) (t : Fin cfg0.N) :
    iblk m c 1 t = ((cfg0.win 1).blk t).view.read (Elt Ideal) (V m c main_v24) := rfl
theorem feat_window (c : Dev nD) (t : Fin cfg0.N) :
    iblk m c 2 t = ((cfg0.win 2).blk t).view.read (Elt Ideal) (V m c main_arg0) := rfl
theorem wsrc_window (c : Dev nD) (t : Fin cfg0.N) :
    iblk m c 3 t = ((cfg0.win 3).blk t).view.read (Elt Ideal) (V m c main_v25) := rfl
theorem wdst_window (c : Dev nD) (t : Fin cfg0.N) :
    iblk m c 4 t = ((cfg0.win 4).blk t).view.read (Elt Ideal) (V m c main_v26) := rfl
theorem bias_window (c : Dev nD) (t : Fin cfg0.N) :
    iblk m c 5 t = ((cfg0.win 5).blk t).view.read (Elt Ideal) (V m c main_v28) := rfl

/-- What point `t` writes back is block `t` of the projection. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  rw [sums_window m c t, recip_window m c t, feat_window m c t, wsrc_window m c t, wdst_window m c t, bias_window m c t]
  funext j
  exact congrFun (block_eq t (V m c main_v15) (V m c main_v24) (V m c main_arg0) (V m c main_v25) (V m c main_v26)
    (V m c main_v28)) j

/-- An index of the result is in point `t`'s block iff each coordinate is in the block's range. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v29).slice (win0_6.rect t)).set ↔ _
  rw [View.set_slice_whole, Rect.mem_set_unit]
  exact Iff.rfl

/-- Every index of the result is in the block of the point its row belongs to. -/
theorem covered (i : S100000x128.Idx) :
    ∃ t : Fin cfg0.N, (cfg0.win 6).flush t = true ∧ i ∈ ((cfg0.win 6).blk t).view.set := by
  have h0 : (i 0).val < 100000 := (i 0).isLt
  have h1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, -, -, -, -, e0, e1⟩ := block_indices t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- The result array after the run is the projection of the arrays the region found. -/
theorem final (c : Dev nD) : (dats m 0 c).arrAt 6 cfg0.N = result m c :=
  (dats m 0 c).arrAt_eq_of_cover 6 (result m c) (fun t _ => flushed_eq m c t) covered

/-- The run, read: the result at the projection, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.EntryArrays.lean ====
/-
  What the projection's windows find when the region is entered.

  Before the region the program gathers the features along the edges' sources, sums the gathered rows into their
  destination nodes, counts the edges into each node, forms the column `1 / max(count, 1)`, transposes the two weight
  matrices and adds the two bias vectors.  Each of these arrays is written here as a function of the arguments, in the
  vocabulary of the reference program's own stages, since the two programs compute the neighbour sums and the counts
  by the same operations: the detour of the gathered rows through a narrower float format is the identity on the
  extended reals, so the neighbour sums are the reference's, and the counts are the reference's literally.

-/
import proofs.«108512_j7473243095279_2_alg».proof.Proof.Gen.KernelIdeal.Frame
import proofs.«108512_j7473243095279_2_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v13 val_main_v18 val_main_v19 val_main_v23 val_main_v28)

variable (m : (ℓ : Loc nD τ sig) → Buf (Elt Ideal) ℓ)

/-- The neighbour sums: the features gathered along the edges' sources and summed into the destinations. -/
theorem sums_eq (c : Dev nD) :
    (V m c main_v15 : S100000x128.Idx → EReal)
      = val_main_v13 (F := Ideal) (m ((c : Thread nD τ).loc main_arg0)) (m ((c : Thread nD τ).loc main_arg1)) := by
  dsimp only [Gen.V, Gen.hostOps0]
  after_results_simp
  rfl

/-- The reciprocal-count column: one over the larger of the edge count and one, as one column. -/
theorem recip_eq (c : Dev nD) :
    (V m c main_v24 : S100000x1.Idx → EReal)
      = shapeCast S100000x1 (Host.divf (F := Ideal) (s := S100000) (φ := .f32) (val_main_v18 (F := Ideal))
          (val_main_v19 (F := Ideal) (m ((c : Thread nD τ).loc main_arg1)))) shapeCasts_S100000_S100000x1 := by
  dsimp only [Gen.V, Gen.hostOps0]
  after_results_simp
  rfl

/-- The first weight matrix, transposed. -/
theorem wsrc_eq (c : Dev nD) :
    (V m c main_v25 : S128x128.Idx → EReal) = val_main_v23 (F := Ideal) (m ((c : Thread nD τ).loc main_arg2)) := by
  dsimp only [Gen.V, Gen.hostOps0]
  after_results_simp
  rfl

/-- The second weight matrix, transposed. -/
theorem wdst_eq (c : Dev nD) :
    (V m c main_v26 : S128x128.Idx → EReal) = val_main_v28 (F := Ideal) (m ((c : Thread nD τ).loc main_arg4)) := by
  dsimp only [Gen.V, Gen.hostOps0]
  after_results_simp
  rfl

/-- The two bias vectors added, as one row. -/
theorem bias_eq (c : Dev nD) :
    (V m c main_v28 : S1x128.Idx → EReal)
      = shapeCast S1x128 (addf (F := Ideal) (s := S128) (φ := .f32) (m ((c : Thread nD τ).loc main_arg3))
          (m ((c : Thread nD τ).loc main_arg5))) shapeCasts_S128_S1x128 := by
  dsimp only [Gen.V, Gen.hostOps0]
  after_results_simp
  rfl

end Cert.KernelIdeal.Entry

end
-- ==== Proof.Bridge.lean ====
/-
  The reference's result is the same projection.

  Read one stage at a time at node `r`, channel `q`, the reference computes

      ((∑ₖ (sums r k / max(count r, 1)) · W₁ q k  +  b₁ q)  +  ∑ₖ x r k · W₂ q k)  +  b₂ q,

  with the neighbour sums and the counts left as the whole arrays they are (they are the same arrays on both sides and
  are never opened) and the transposed weights left as the transposes they are.  The projection of the other program's
  arrays has the reciprocal column `1 / max(count r, 1)` as its scale and `b₁ q + b₂ q` as its bias row.  Entry by
  entry the quotient is the product with the reciprocal (the divisor is at least one) and the four summands regroup.
-/
import proofs.«108512_j7473243095279_2_alg».proof.Proof.Gen.ReferenceIdeal.Read
import proofs.«108512_j7473243095279_2_alg».proof.Proof.Projection
import proofs.«108512_j7473243095279_2_alg».proof.Proof.LibKeepdims
import Idealize.ShloMosaic.Lib.IdealHost
import Idealize.ShloMosaic.Lib.ValueIdx
import Idealize.ShloMosaic.Lib.Pipeline.Value

noncomputable section

namespace Cert.ReferenceIdeal.Bridge

open Cert.ReferenceIdeal Cert.ReferenceIdeal.Read Idealize.ShloMosaic Idealize.ShloMosaic.ValueIdx Cert.Projection

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## The divisor `max(count, 1)` and its reciprocal -/

/-- The constant the counts are compared with is one. -/
theorem one_at (i : S100000.Idx) : val_main_v18 (F := Ideal) i = (1 : EReal) := by
  rw [val_main_v18_apply, val_main_cst_3_apply]
  exact Ideal.ofBits_one_f32

/-- The divisor at a node: the larger of its count and one. -/
theorem floor_at (i : S100000.Idx) :
    val_main_v19 (F := Ideal) x1 i = max (val_main_v17 (F := Ideal) x1 i) (1 : EReal) := by
  rw [val_main_v19_apply, one_at]
  rfl

/-- A quotient of two vectors at an index. -/
theorem quot_at (A B : FVec Ideal S100000 .f32) (i : S100000.Idx) :
    Host.divf (F := Ideal) A B i = Ideal.div (A i) (B i) := rfl

/-- The reciprocal column at node `r`: one over the larger of the count and one. -/
theorem recip_at (hc : S100000.ShapeCasts Col) (r : Fin 100000) :
    shapeCast Col (Host.divf (F := Ideal) (s := S100000) (φ := .f32) (val_main_v18 (F := Ideal))
        (val_main_v19 (F := Ideal) x1)) hc (ix2 r (0 : Fin 1))
      = Ideal.div 1 (max (val_main_v17 (F := Ideal) x1 (ix1 r)) 1) := by
  rw [Cert.SupCon.Ker.shapeCast_a_a1_apply, quot_at, one_at, floor_at]

/-- The mean of the neighbour sums at `(r, k)`: the sum over the larger of the count and one. -/
theorem mean_at (r : Fin 100000) (k : Fin 128) :
    val_main_v22 (F := Ideal) x0 x1 (ix2 r k)
      = Ideal.div (val_main_v13 (F := Ideal) x0 x1 (ix2 r k)) (max (val_main_v17 (F := Ideal) x1 (ix1 r)) 1) := by
  have e : idx_main_v20 (idx_main_v21 (ix2 r k)) = ix1 r :=
    funext fun a => Fin.ext (by match a with | ⟨0, _⟩ => rfl)
  rw [val_main_v22_apply, val_main_v21_apply, val_main_v20_apply, e, floor_at]
  rfl

/-- The bias row of the other program at channel `q`: the two bias entries added. -/
theorem bias_at (hb : S128.ShapeCasts Row) (q : Fin 128) :
    shapeCast Row (addf (F := Ideal) (s := S128) (φ := .f32) x3 x5) hb (ix2 (0 : Fin 1) q)
      = x3 (ix1 q) + x5 (ix1 q) := by
  refine (shapeCast_apply _ hb (ix2 (0 : Fin 1) q) (ix1 q) ?_).trans rfl
  rw [Shape.rowMajor_val_two, Shape.rowMajor_val_one]
  show q.val = 0 * 128 + q.val
  omega

/-! ## The reference, entry by entry -/

/-- The reference's result at node `r`, channel `q`. -/
theorem ref_at (r : Fin 100000) (q : Fin 128) :
    val_main_v33 (F := Ideal) x0 x1 x2 x3 x4 x5 (ix2 r q)
      = (((∑ k : Fin 128, val_main_v22 (F := Ideal) x0 x1 (ix2 r k) * val_main_v23 (F := Ideal) x2 (ix2 k q))
            + x3 (ix1 q))
          + ∑ k : Fin 128, x0 (ix2 r k) * val_main_v28 (F := Ideal) x4 (ix2 k q))
        + x5 (ix1 q) := by
  have el24 : ∀ k, lidx_main_v24 (ix2 r q) k = ix2 r k := fun k =>
    funext fun a => Fin.ext (by match a with | ⟨0, _⟩ => rfl | ⟨1, _⟩ => rfl)
  have er24 : ∀ k, ridx_main_v24 (ix2 r q) k = ix2 k q := fun k =>
    funext fun a => Fin.ext (by match a with | ⟨0, _⟩ => rfl | ⟨1, _⟩ => rfl)
  have el29 : ∀ k, lidx_main_v29 (ix2 r q) k = ix2 r k := fun k =>
    funext fun a => Fin.ext (by match a with | ⟨0, _⟩ => rfl | ⟨1, _⟩ => rfl)
  have er29 : ∀ k, ridx_main_v29 (ix2 r q) k = ix2 k q := fun k =>
    funext fun a => Fin.ext (by match a with | ⟨0, _⟩ => rfl | ⟨1, _⟩ => rfl)
  have e3 : idx_main_v25 (idx_main_v26 (ix2 r q)) = ix1 q :=
    funext fun a => Fin.ext (by match a with | ⟨0, _⟩ => rfl)
  have e5 : idx_main_v31 (idx_main_v32 (ix2 r q)) = ix1 q :=
    funext fun a => Fin.ext (by match a with | ⟨0, _⟩ => rfl)
  rw [val_main_v33_apply, val_main_v30_apply, val_main_v27_apply, val_main_v24_apply, val_main_v29_apply,
    val_main_v26_apply, val_main_v25_apply, val_main_v32_apply, val_main_v31_apply]
  simp only [el24, er24, el29, er29, e3, e5]
  rfl

/-- The reference's result is the projection of the neighbour sums, the reciprocal column, the features, the two
    transposed weight matrices and the added biases. -/
theorem ref_eq_proj (hc : S100000.ShapeCasts Col) (hb : S128.ShapeCasts Row) :
    val_main_v33 (F := Ideal) x0 x1 x2 x3 x4 x5
      = proj (val_main_v13 (F := Ideal) x0 x1)
          (shapeCast Col (Host.divf (F := Ideal) (s := S100000) (φ := .f32) (val_main_v18 (F := Ideal))
            (val_main_v19 (F := Ideal) x1)) hc)
          x0 (val_main_v23 (F := Ideal) x2) (val_main_v28 (F := Ideal) x4)
          (shapeCast Row (addf (F := Ideal) (s := S128) (φ := .f32) x3 x5) hb) := by
  funext i
  obtain ⟨r, q, rfl⟩ : ∃ (r : Fin 100000) (q : Fin 128), i = (ix2 r q : S100000x128.Idx) :=
    ⟨i 0, i 1, eq_ix2 (n0 := 100000) (n1 := 128) i⟩
  rw [ref_at, proj_apply, bias_at, regroup]
  refine congrArg₂ (· + ·) (congrArg₂ (· + ·) (congrArg₂ (· + ·) (Finset.sum_congr rfl fun k _ => ?_) rfl) rfl) rfl
  rw [mean_at, recip_at, scale_eq_div]

end Cert.ReferenceIdeal.Bridge

end
-- ==== Proof.lean ====
/-
  A mean-aggregating graph projection against its plain reference, over the extended reals.

  Both programs gather the node features along the edges' sources, sum the gathered rows into the edges' destinations
  and count the edges into each node; these neighbour sums and counts are computed by the same operations in both (one
  program routes the gathered rows through a narrower float format and back, which changes nothing on the extended
  reals), so they enter the proof as two whole arrays that are never opened.  From them the reference computes

      ((sums / max(count, 1)) · W₁ᵀ + b₁) + x · W₂ᵀ + b₂,

  while the other program forms the column 1 / max(count, 1), the transposes and the vector b₁ + b₂ first and then, in
  twenty row blocks of 5000 nodes, computes

      ((sums · column) · W₁ᵀ + x · W₂ᵀ) + (b₁ + b₂).

  The proof: each stored block is the second formula restricted to the block's rows (one block, entry by entry); the
  twenty blocks tile the result, so the result array is that formula of the whole arrays (from the blocks to the whole
  result); the arrays the blocks are cut from are the reference's own intermediate arrays (what the windows find); and
  entry by entry the two formulas agree, because a divisor at least one is not zero, so multiplying by its reciprocal
  is dividing by it, and because addition of extended reals is commutative and associative (the reference's result is
  the same projection).  No distributive law is used, so the finiteness of the inputs is never needed for the values.
  The two programs' own runs (termination, no fault, arguments unchanged) are the generated frame runs and the
  reference's generated run; nothing was rewritten by the idealization, so there is nothing to preserve.
-/
import proofs.«108512_j7473243095279_2_alg».proof.Defs
import proofs.«108512_j7473243095279_2_alg».proof.Proof.Gen.Kernel
import proofs.«108512_j7473243095279_2_alg».proof.Proof.Gen.Kernel.Skeleton
import proofs.«108512_j7473243095279_2_alg».proof.Proof.Gen.Kernel.Launch
import proofs.«108512_j7473243095279_2_alg».proof.Proof.Gen.Kernel.Points
import proofs.«108512_j7473243095279_2_alg».proof.Proof.Gen.Kernel.Frame
import proofs.«108512_j7473243095279_2_alg».proof.Proof.Gen.KernelIdeal
import proofs.«108512_j7473243095279_2_alg».proof.Proof.Gen.KernelIdeal.Skeleton
import proofs.«108512_j7473243095279_2_alg».proof.Proof.Gen.KernelIdeal.Launch
import proofs.«108512_j7473243095279_2_alg».proof.Proof.Gen.KernelIdeal.Points
import proofs.«108512_j7473243095279_2_alg».proof.Proof.Gen.KernelIdeal.Frame
import proofs.«108512_j7473243095279_2_alg».proof.Proof.Gen.ReferenceIdeal
import proofs.«108512_j7473243095279_2_alg».proof.Proof.Gen.Pre_finite_inputs
import proofs.«108512_j7473243095279_2_alg».proof.Proof.Gen.KernelIdeal.Value
import proofs.«108512_j7473243095279_2_alg».proof.Proof.Gen.ReferenceIdeal.Run
import proofs.«108512_j7473243095279_2_alg».proof.Proof.Gen.ReferenceIdeal.Read
import proofs.«108512_j7473243095279_2_alg».proof.Proof.WholeArray
import proofs.«108512_j7473243095279_2_alg».proof.Proof.EntryArrays
import proofs.«108512_j7473243095279_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the projection of the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2]
  show _ = Cert.Projection.proj (Cert.KernelIdeal.Gen.V m c Cert.KernelIdeal.main_v15)
    (Cert.KernelIdeal.Gen.V m c Cert.KernelIdeal.main_v24) (Cert.KernelIdeal.Gen.V m c Cert.KernelIdeal.main_arg0)
    (Cert.KernelIdeal.Gen.V m c Cert.KernelIdeal.main_v25) (Cert.KernelIdeal.Gen.V m c Cert.KernelIdeal.main_v26)
    (Cert.KernelIdeal.Gen.V m c Cert.KernelIdeal.main_v28)
  rw [Cert.KernelIdeal.Entry.sums_eq m c, Cert.KernelIdeal.Entry.recip_eq m c, Cert.KernelIdeal.Gen.V_main_arg0 m c,
    Cert.KernelIdeal.Entry.wsrc_eq m c, Cert.KernelIdeal.Entry.wdst_eq m c, Cert.KernelIdeal.Entry.bias_eq m c]
  exact Cert.ReferenceIdeal.Bridge.ref_eq_proj _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
